-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S4096x1024 : S_.BroadcastsInDim S4096x1024 (![] : Fin 0 → Fin S4096x1024.rank)
  reducesTo_S4096x1024_S_d0_1 : S4096x1024.ReducesTo [0, 1] S_
  bcast_S_S4096 : S_.BroadcastsInDim S4096 (![] : Fin 0 → Fin S4096.rank)
  reducesTo_S4096_S_d0 : S4096.ReducesTo [0] S_
  bcast_S_S1024x4096 : S_.BroadcastsInDim S1024x4096 (![] : Fin 0 → Fin S1024x4096.rank)
  reducesTo_S1024x4096_S_d0_1 : S1024x4096.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x4096 1) : IVec S_ 1 :=
  let main_c_5 : IVec S_ 1 := constantI S_ 1 1#1
  let main_v17 : IVec S_ 1 := (fun x v => Host.reduce IntOp.andi x v reducesTo_S1024x4096_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S4x4096x1024 .f32) (main_arg1 : FVec F S4096x1024 .f32) (main_arg2 : FVec F S4096 .f32) (main_arg3 : FVec F S1024x4096 .f32) (main_arg4 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  let main_v14 : FVec F S1024x4096 .f32 := Host.absf main_arg3
  let main_cst_4 : FVec F S_ .f32 := constant S_ .f32 0x7F800000#32
  let main_v15 : FVec F S1024x4096 .f32 := broadcastInDim S1024x4096 ![] bcast_S_S1024x4096 main_cst_4
  let main_v16 : IVec S1024x4096 1 := cmpf .olt main_v14 main_v15
  fn_part1 (F := F) main_arg4 main_v13 main_v16
-- ==== Kernel.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S16384x1024 : Shape := ⟨2, ![16384, 1024]⟩
abbrev S1x4096 : Shape := ⟨2, ![1, 4096]⟩
abbrev S1x1024 : Shape := ⟨2, ![1, 1024]⟩
abbrev S512x1024 : Shape := ⟨2, ![512, 1024]⟩
abbrev S1024x1024 : Shape := ⟨2, ![1024, 1024]⟩

abbrev nBuf : Space → Nat
  | .hbm => 12
  | .vmem => 9
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S16384x1024, .f32⟩
  | .hbm, ⟨6, _⟩ => ⟨S4096x1024, .bf16⟩
  | .hbm, ⟨7, _⟩ => ⟨S1024x4096, .bf16⟩
  | .hbm, ⟨8, _⟩ => ⟨S1x4096, .f32⟩
  | .hbm, ⟨9, _⟩ => ⟨S1x1024, .f32⟩
  | .hbm, ⟨10, _⟩ => ⟨S16384x1024, .f32⟩
  | .hbm, ⟨11, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S4096x1024, .bf16⟩
  | .local _ .vmem, ⟨3, _⟩ => ⟨S1x4096, .f32⟩
  | .local _ .vmem, ⟨4, _⟩ => ⟨S1024x4096, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4x4096x1024_S16384x1024 : S4x4096x1024.ShapeCasts S16384x1024
  bitsLt_bf16_f32 : FTy.bits .bf16 < FTy.bits .f32
  shapeCasts_S4096_S1x4096 : S4096.ShapeCasts S1x4096
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S4096x1024_S1024x1024_0_0 : ∀ a, (![0, 0] : Fin 2 → Nat) a + S1024x1024.size a ≤ S4096x1024.size a
  h_S1024x1024 : 0 < S1024x1024.numel
  shapeCasts_S1024x1024_S1024x1024 : S1024x1024.ShapeCasts S1024x1024
  inb_S1x4096_S1x1024_0_0 : ∀ a, (![0, 0] : Fin 2 → Nat) a + S1x1024.size a ≤ S1x4096.size a
  h_S1x1024 : 0 < S1x1024.numel
  shapeCasts_S1x1024_S1x1024 : S1x1024.ShapeCasts S1x1024
  broadcasts_S1x1024_S512x1024 : S1x1024.Broadcasts S512x1024
  inb_S1024x4096_S1024x1024_0_0 : ∀ a, (![0, 0] : Fin 2 → Nat) a + S1024x1024.size a ≤ S1024x4096.size a
  inb_S4096x1024_S1024x1024_1024_0 : ∀ a, (![1024, 0] : Fin 2 → Nat) a + S1024x1024.size a ≤ S4096x1024.size a
  inb_S1x4096_S1x1024_0_1024 : ∀ a, (![0, 1024] : Fin 2 → Nat) a + S1x1024.size a ≤ S1x4096.size a
  inb_S1024x4096_S1024x1024_0_1024 : ∀ a, (![0, 1024] : Fin 2 → Nat) a + S1024x1024.size a ≤ S1024x4096.size a
  inb_S4096x1024_S1024x1024_2048_0 : ∀ a, (![2048, 0] : Fin 2 → Nat) a + S1024x1024.size a ≤ S4096x1024.size a
  inb_S1x4096_S1x1024_0_2048 : ∀ a, (![0, 2048] : Fin 2 → Nat) a + S1x1024.size a ≤ S1x4096.size a
  inb_S1024x4096_S1024x1024_0_2048 : ∀ a, (![0, 2048] : Fin 2 → Nat) a + S1024x1024.size a ≤ S1024x4096.size a
  inb_S4096x1024_S1024x1024_3072_0 : ∀ a, (![3072, 0] : Fin 2 → Nat) a + S1024x1024.size a ≤ S4096x1024.size a
  inb_S1x4096_S1x1024_0_3072 : ∀ a, (![0, 3072] : Fin 2 → Nat) a + S1x1024.size a ≤ S1x4096.size a
  inb_S1024x4096_S1024x1024_0_3072 : ∀ a, (![0, 3072] : Fin 2 → Nat) a + S1024x1024.size a ≤ S1024x4096.size a
  inb_S1x1024_S1x1024_0_0 : ∀ a, (![0, 0] : Fin 2 → Nat) a + S1x1024.size a ≤ S1x1024.size a
  shapeCasts_S16384x1024_S4x4096x1024 : S16384x1024.ShapeCasts S4x4096x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S16384x1024.size a
  hwx0_0 : ∀ i : grid0.Coords, EltTy.bits .f32 = 32 ∨ (Rect.block (s := S16384x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x1024.size a ≤ S4096x1024.size a
  hwx0_1 : ∀ i : grid0.Coords, EltTy.bits .bf16 = 32 ∨ (Rect.block (s := S4096x1024) S4096x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x4096.size a ≤ S1x4096.size a
  hwx0_2 : ∀ i : grid0.Coords, EltTy.bits .f32 = 32 ∨ (Rect.block (s := S1x4096) S1x4096.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x4096.size a ≤ S1024x4096.size a
  hwx0_3 : ∀ i : grid0.Coords, EltTy.bits .bf16 = 32 ∨ (Rect.block (s := S1024x4096) S1024x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S16384x1024.size a
  hwx0_5 : ∀ i : grid0.Coords, EltTy.bits .f32 = 32 ∨ (Rect.block (s := S16384x1024) S512x1024.size (cc0_transform_5 i) (hinb0_5 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x4096.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4x4096x1024 : Shape := ⟨3, ![4, 4096, 1024]⟩
abbrev S4096x1024 : Shape := ⟨2, ![4096, 1024]⟩
abbrev S4096 : Shape := ⟨1, ![4096]⟩
abbrev S1024x4096 : Shape := ⟨2, ![1024, 4096]⟩
abbrev S1024 : Shape := ⟨1, ![1024]⟩
abbrev S4x4096x4096 : Shape := ⟨3, ![4, 4096, 4096]⟩
abbrev S1x1x4096 : Shape := ⟨3, ![1, 1, 4096]⟩
abbrev S_ : Shape := ⟨0, ![]⟩
abbrev S1x1x1024 : Shape := ⟨3, ![1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4096x1024, .f32⟩
  | .hbm, ⟨2, _⟩ => ⟨S4096, .f32⟩
  | .hbm, ⟨3, _⟩ => ⟨S1024x4096, .f32⟩
  | .hbm, ⟨4, _⟩ => ⟨S1024, .f32⟩
  | .hbm, ⟨5, _⟩ => ⟨S4x4096x4096, .f32⟩
  | .hbm, ⟨6, _⟩ => ⟨S1x1x4096, .f32⟩
  | .hbm, ⟨7, _⟩ => ⟨S4x4096x4096, .f32⟩
  | .hbm, ⟨8, _⟩ => ⟨S4x4096x4096, .f32⟩
  | .hbm, ⟨9, _⟩ => ⟨S_, .f32⟩
  | .hbm, ⟨10, _⟩ => ⟨S4x4096x4096, .f32⟩
  | .hbm, ⟨11, _⟩ => ⟨S4x4096x4096, .f32⟩
  | .hbm, ⟨12, _⟩ => ⟨S4x4096x1024, .f32⟩
  | .hbm, ⟨13, _⟩ => ⟨S1x1x1024, .f32⟩
  | .hbm, ⟨14, _⟩ => ⟨S4x4096x1024, .f32⟩
  | .hbm, ⟨15, _⟩ => ⟨S4x4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩

abbrev nD : Nat := 1
abbrev τ : Topo := Topo.v7x

variable {F : FTy → Type} [FloatOps F]

class Facts₀ : Prop where
  bcast_S4096_S1x1x4096_2 : S4096.BroadcastsInDim S1x1x4096 (![2] : Fin 1 → Fin S1x1x4096.rank)
  bcast_S1x1x4096_S4x4096x4096_0_1_2 : S1x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  dot_S4x4096x1024_S4096x1024_S4x4096x4096_2_1_01_0_n_n_wf : DotDims.WF S4x4096x1024 S4096x1024 S4x4096x4096 [2] [1] [0, 1] [0] [] []
  dot_S4x4096x4096_S1024x4096_S4x4096x1024_2_1_01_0_n_n_wf : DotDims.WF S4x4096x4096 S1024x4096 S4x4096x1024 [2] [1] [0, 1] [0] [] []

variable [Facts₀]

def dot_S4x4096x1024_S4096x1024_S4x4096x4096_2_1_01_0_n_n : DotDims S4x4096x1024 S4096x1024 S4x4096x4096 where
  lhsContracting := [2]
  rhsContracting := [1]
  lhsNonContracting := [0, 1]
  rhsNonContracting := [0]
  lhsBatch := []
  rhsBatch := []
  wf := dot_S4x4096x1024_S4096x1024_S4x4096x4096_2_1_01_0_n_n_wf
def dot_S4x4096x4096_S1024x4096_S4x4096x1024_2_1_01_0_n_n : DotDims S4x4096x4096 S1024x4096 S4x4096x1024 where
  lhsContracting := [2]
  rhsContracting := [1]
  lhsNonContracting := [0, 1]
  rhsNonContracting := [0]
  lhsBatch := []
  rhsBatch := []
  wf := dot_S4x4096x4096_S1024x4096_S4x4096x1024_2_1_01_0_n_n_wf

class Facts : Prop extends Facts₀ where

variable [Facts]
-- ==== Proof.LibReadBack.lean ====
import Idealize.ShloMosaic.Lib.Pipeline.Value

/-!
# Reading back the last whole-buffer store

A body that keeps a running value in a scratch buffer stores the whole buffer, loads the whole buffer, stores
again, and so on. After any number of earlier stores, a load of the whole buffer (through the unit rectangle at
zero offsets, of the buffer's own sizes) reads the payload of the LAST store through that same rectangle: the last
store covers every index, so nothing written before it is visible.
-/

noncomputable section

namespace Idealize.ShloMosaic.View

variable {Val : EltTy → Type} {S : Shape} {e : EltTy}

/-- A load of the whole buffer, after a list of stores whose last one was a store of the whole buffer, reads that
    last store's payload, whatever the earlier stores were (the one-store case is the library's
    `readCov_unit_zero`). -/
theorem readCov_cons_unit_zero [∀ e, Nonempty (Val e)] {sig : RefSig} {κ : Kind} {sp : Space}
    (v : View sig κ sp S e) {off : Fin S.rank → Nat} (h : off = fun _ => 0)
    (inb : ∀ a, off a + S.size a ≤ S.size a) (w : S.Idx → Val e) (L : List (Piece Val S e)) :
    v.readCov ((⟨Rect.unit off S.size inb, w⟩ : Piece Val S e) :: L) (Rect.unit off S.size inb).toLoadRect = w := by
  subst h
  rw [readCov_eq_canon_ld _ _ _ (fun y => ⟨_, List.mem_cons_self, by
    show y ∈ (Rect.whole S).set; rw [Rect.set_whole]; exact Finset.mem_univ y⟩), canon_cons_unit_zero rfl, ld_unit_zero rfl]

end Idealize.ShloMosaic.View

end
-- ==== Proof.Body.lean ====
import proofs.«142552_j70214125355099_2_alg».proof.Proof.Gen.KernelIdeal.Frame
import proofs.«142552_j70214125355099_2_alg».proof.Proof.LibReadBack
import Idealize.ShloMosaic.Lib.Pipeline.Value
import Idealize.ShloMosaic.Lib.Tactic

/-!
# What one grid point leaves in the output block

The body works on a 512-row block `x0` of the input, the whole weight matrices `x1` (4096 × 1024) and `x3`
(1024 × 4096) and the whole bias rows `x2` (1 × 4096) and `x4` (1 × 1024). It zeroes a 512 × 1024 scratch, then for
each of four bands of 1024 hidden units reads the band's rows of `x1`, its entries of `x2` and its columns of `x3`,
and adds the band's contribution to the scratch; the output block is the scratch plus the broadcast row `x4`.
Every store and load of the scratch is of the whole buffer, so each load reads what the store before it wrote:
the block the body leaves is the nested term below, a function of the five inputs only (not of the scratch's or
the output buffer's earlier contents). This holds for any float instance.
-/

set_option maxRecDepth 16384

noncomputable section

open Idealize.ShloMosaic Idealize.ShloMosaic.TcCoe Idealize.SL.Sem
open Idealize.ShloMosaic.Pipeline (Dat)

namespace Cert.KernelIdeal.Body

open Cert.KernelIdeal Cert.KernelIdeal.Gen

variable {F : FTy → Type} [FloatOps F]

theorem zeroOff : (![0, 0] : Fin 2 → Nat) = fun _ => 0 := funext fun a => by fin_cases a <;> rfl

/-- The output block as a function of the five inputs: the running value after the fourth band, plus the bias row.
    Reading from the inside out: the zero block; after band 0; after band 1 (whose pre-activation is computed before
    the rectifier is applied); after band 2; band 3's bias entries and pre-activation; after band 3; the bias row
    added. -/
def blockOut (x0 : Vec F S512x1024 .f32) (x1 : Vec F S4096x1024 .bf16) (x2 : Vec F S1x4096 .f32)
    (x3 : Vec F S1024x4096 .bf16) (x4 : Vec F S1x1024 .f32) : Vec F S512x1024 .f32 :=
  k0_pay2
    (k0_pay1 (k0_pay10 (View.ld x2 (Rect.unit ![0, 3072] ![1, 1024] inb_S1x4096_S1x1024_0_3072)))
      (k0_pay11 (k0_pay3 x0) (View.ld x1 (Rect.unit ![3072, 0] ![1024, 1024] inb_S4096x1024_S1024x1024_3072_0)))
      (View.ld x3 (Rect.unit ![0, 3072] ![1024, 1024] inb_S1024x4096_S1024x1024_0_3072))
      (k0_pay9 (k0_pay3 x0) (View.ld x1 (Rect.unit ![2048, 0] ![1024, 1024] inb_S4096x1024_S1024x1024_2048_0))
        (View.ld x2 (Rect.unit ![0, 2048] ![1, 1024] inb_S1x4096_S1x1024_0_2048))
        (View.ld x3 (Rect.unit ![0, 2048] ![1024, 1024] inb_S1024x4096_S1024x1024_0_2048))
        (k0_pay8
          (k0_pay6 x0 (View.ld x1 (Rect.unit ![1024, 0] ![1024, 1024] inb_S4096x1024_S1024x1024_1024_0))
            (View.ld x2 (Rect.unit ![0, 1024] ![1, 1024] inb_S1x4096_S1x1024_0_1024)))
          k0_pay7 (View.ld x3 (Rect.unit ![0, 1024] ![1024, 1024] inb_S1024x4096_S1024x1024_0_1024))
          (k0_pay5 x0 (View.ld x1 (Rect.unit ![0, 0] ![1024, 1024] inb_S4096x1024_S1024x1024_0_0))
            (View.ld x2 (Rect.unit ![0, 0] ![1, 1024] inb_S1x4096_S1x1024_0_0))
            (View.ld x3 (Rect.unit ![0, 0] ![1024, 1024] inb_S1024x4096_S1024x1024_0_0)) k0_pay4))))
    x4

/-- What the body's run leaves in the output's staging buffer is `blockOut` of the input blocks: the one covering
    store's payload, each read-back of the scratch replaced by the payload of the store before it. -/
theorem out_eq_blockOut (c : Dev nD) (i : grid0.Coords) (arg1 : Memref sig .tc .vmem S512x1024 .f32) (harg1 : arg1.IsWhole) (arg2 : Memref sig .tc .vmem S4096x1024 .bf16) (harg2 : arg2.IsWhole) (arg3 : Memref sig .tc .vmem S1x4096 .f32) (harg3 : arg3.IsWhole) (arg4 : Memref sig .tc .vmem S1024x4096 .bf16) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec F S512x1024 .f32) (x1 : Vec F S4096x1024 .bf16) (x2 : Vec F S1x4096 .f32) (x3 : Vec F S1024x4096 .bf16) (x4 : Vec F S1x1024 .f32) :
    out0_A_5 c i arg1 harg1 arg2 harg2 arg3 harg3 arg4 harg4 arg5 harg5 arg6 harg6 arg7 harg7 x0 x1 x2 x3 x4 = blockOut x0 x1 x2 x3 x4 := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A
  dsimp only
  sl_unfold_words
  rw [View.canon_unit_zero zeroOff]
  simp only [View.readCov_cons_unit_zero (S := S512x1024) _ zeroOff, View.readCov_unit_zero (S := S512x1024) _ zeroOff,
    View.readAt_eq_ld, harg1.read_unread, harg2.read_unread, harg3.read_unread, harg4.read_unread, harg5.read_unread,
    View.ld_unit_zero (S := S512x1024) zeroOff, View.ld_unit_zero (S := S1x1024) zeroOff]
  rfl

end Cert.KernelIdeal.Body

end
-- ==== Proof.Spec.lean ====
import Idealize.ShloMosaic.PureOps.Ideal
import Idealize.ShloMosaic.PureOps.Ideal.Laws
import Idealize.ShloMosaic.Lib.ValueIdx

/-!
# A two-layer feed-forward row, whole and in four chunks of the hidden axis

For one input row `x : Fin 1024 → EReal`, first-layer weights `w f j` and biases `b f` over 4096 hidden units,
second-layer weights `v h f` and biases `β h` over 1024 outputs:

  hidden unit `f`:   a f = max (∑ j, x j · w f j + b f) 0
  output `h`:        (∑ f, a f · v h f) + β h.

The chunked form splits the 4096 hidden units into four runs of 1024 (unit `1024 q + k` is position `k` of run
`q`) and adds the four partial sums, in order, to a running value that starts at the zero word:
`((((0 + Σ₀) + Σ₁) + Σ₂) + Σ₃) + β h`. Over the extended reals addition is commutative and associative (no
finiteness is needed), so the two forms are equal: the 4096 units are in bijection with (run, position).
-/

noncomputable section

namespace Cert.Ffn

open Idealize.ShloMosaic

/-- The f32 zero word read as an extended real: the floor of the rectifier and the start of the running sum. -/
abbrev zeroW : EReal := Ideal.ofBits .f32 0x00000000#32

theorem zeroW_eq : zeroW = 0 := Ideal.ofBits_zero_f32

/-- Hidden unit `1024 q + k`: position `k` of the `q`-th run of 1024. -/
def unitAt (q : Fin 4) (k : Fin 1024) : Fin 4096 := ⟨1024 * q.val + k.val, by omega⟩

theorem unitAt_val (q : Fin 4) (k : Fin 1024) : (unitAt q k).val = 1024 * q.val + k.val := rfl

/-- A sum over the 4096 hidden units is the sum of the four runs' sums. -/
theorem sum_units {M : Type*} [AddCommMonoid M] (g : Fin 4096 → M) :
    ∑ f, g f = ∑ k, g (unitAt 0 k) + ∑ k, g (unitAt 1 k) + ∑ k, g (unitAt 2 k) + ∑ k, g (unitAt 3 k) := by
  have e : ∀ (q : Fin 4) (k : Fin 1024), (finProdFinEquiv (q, k) : Fin (4 * 1024)) = unitAt q k := fun q k =>
    Fin.ext (by show k.val + 1024 * q.val = 1024 * q.val + k.val; omega)
  rw [← Equiv.sum_comp (finProdFinEquiv (m := 4) (n := 1024)) g, Fintype.sum_prod_type, Fin.sum_univ_four]
  simp only [e]

/-- The rectified pre-activation of hidden unit `f` for the row `x`. -/
def hidden (x : Fin 1024 → EReal) (w : Fin 4096 → Fin 1024 → EReal) (b : Fin 4096 → EReal) (f : Fin 4096) : EReal :=
  max ((∑ j, x j * w f j) + b f) zeroW

/-- The contribution of the `q`-th run of hidden units to output `h`. -/
def runSum (x : Fin 1024 → EReal) (w : Fin 4096 → Fin 1024 → EReal) (b : Fin 4096 → EReal)
    (v : Fin 1024 → Fin 4096 → EReal) (h : Fin 1024) (q : Fin 4) : EReal :=
  ∑ k, hidden x w b (unitAt q k) * v h (unitAt q k)

/-- The row's output `h`, all hidden units summed at once. -/
def rowWhole (x : Fin 1024 → EReal) (w : Fin 4096 → Fin 1024 → EReal) (b : Fin 4096 → EReal)
    (v : Fin 1024 → Fin 4096 → EReal) (β : Fin 1024 → EReal) (h : Fin 1024) : EReal :=
  (∑ f, hidden x w b f * v h f) + β h

/-- The row's output `h`, the four runs added in order to a running value that starts at the zero word. -/
def rowChunked (x : Fin 1024 → EReal) (w : Fin 4096 → Fin 1024 → EReal) (b : Fin 4096 → EReal)
    (v : Fin 1024 → Fin 4096 → EReal) (β : Fin 1024 → EReal) (h : Fin 1024) : EReal :=
  ((((zeroW + runSum x w b v h 0) + runSum x w b v h 1) + runSum x w b v h 2) + runSum x w b v h 3) + β h

/-- The two forms agree on every extended real. -/
theorem rowChunked_eq_rowWhole (x : Fin 1024 → EReal) (w : Fin 4096 → Fin 1024 → EReal) (b : Fin 4096 → EReal)
    (v : Fin 1024 → Fin 4096 → EReal) (β : Fin 1024 → EReal) (h : Fin 1024) :
    rowChunked x w b v β h = rowWhole x w b v β h := by
  unfold rowChunked rowWhole runSum
  rw [sum_units (fun f => hidden x w b f * v h f), zeroW_eq, zero_add]

/-! ## The layer on a batch of sequences -/

open Idealize.ShloMosaic.ValueIdx

/-- Entry `(b, s, h)` of the layer's result on a `4 × 4096 × 1024` input: the row `(b, s)` of the input through the
    two layers, the weights stored out × in, all hidden units summed at once. -/
def ffnWhole (A0 : (⟨3, ![4, 4096, 1024]⟩ : Shape).Idx → EReal) (A1 : (⟨2, ![4096, 1024]⟩ : Shape).Idx → EReal)
    (A2 : (⟨1, ![4096]⟩ : Shape).Idx → EReal) (A3 : (⟨2, ![1024, 4096]⟩ : Shape).Idx → EReal)
    (A4 : (⟨1, ![1024]⟩ : Shape).Idx → EReal) (b : Fin 4) (s : Fin 4096) (h : Fin 1024) : EReal :=
  rowWhole (fun j => A0 (ix3 b s j)) (fun f j => A1 (ix2 f j)) (fun f => A2 (ix1 f)) (fun h' f => A3 (ix2 h' f))
    (fun h' => A4 (ix1 h')) h

/-- The same entry with the hidden units taken in four runs of 1024. -/
def ffnChunked (A0 : (⟨3, ![4, 4096, 1024]⟩ : Shape).Idx → EReal) (A1 : (⟨2, ![4096, 1024]⟩ : Shape).Idx → EReal)
    (A2 : (⟨1, ![4096]⟩ : Shape).Idx → EReal) (A3 : (⟨2, ![1024, 4096]⟩ : Shape).Idx → EReal)
    (A4 : (⟨1, ![1024]⟩ : Shape).Idx → EReal) (b : Fin 4) (s : Fin 4096) (h : Fin 1024) : EReal :=
  rowChunked (fun j => A0 (ix3 b s j)) (fun f j => A1 (ix2 f j)) (fun f => A2 (ix1 f)) (fun h' f => A3 (ix2 h' f))
    (fun h' => A4 (ix1 h')) h

theorem ffnChunked_eq_ffnWhole (A0 : (⟨3, ![4, 4096, 1024]⟩ : Shape).Idx → EReal) (A1 : (⟨2, ![4096, 1024]⟩ : Shape).Idx → EReal)
    (A2 : (⟨1, ![4096]⟩ : Shape).Idx → EReal) (A3 : (⟨2, ![1024, 4096]⟩ : Shape).Idx → EReal)
    (A4 : (⟨1, ![1024]⟩ : Shape).Idx → EReal) (b : Fin 4) (s : Fin 4096) (h : Fin 1024) :
    ffnChunked A0 A1 A2 A3 A4 b s h = ffnWhole A0 A1 A2 A3 A4 b s h :=
  rowChunked_eq_rowWhole _ _ _ _ _ h

/-- The layer's result array. -/
def ffn (A0 : (⟨3, ![4, 4096, 1024]⟩ : Shape).Idx → EReal) (A1 : (⟨2, ![4096, 1024]⟩ : Shape).Idx → EReal)
    (A2 : (⟨1, ![4096]⟩ : Shape).Idx → EReal) (A3 : (⟨2, ![1024, 4096]⟩ : Shape).Idx → EReal)
    (A4 : (⟨1, ![1024]⟩ : Shape).Idx → EReal) : (⟨3, ![4, 4096, 1024]⟩ : Shape).Idx → EReal :=
  fun i => ffnWhole A0 A1 A2 A3 A4 (i 0) (i 1) (i 2)

theorem ffn_apply (A0 : (⟨3, ![4, 4096, 1024]⟩ : Shape).Idx → EReal) (A1 : (⟨2, ![4096, 1024]⟩ : Shape).Idx → EReal)
    (A2 : (⟨1, ![4096]⟩ : Shape).Idx → EReal) (A3 : (⟨2, ![1024, 4096]⟩ : Shape).Idx → EReal)
    (A4 : (⟨1, ![1024]⟩ : Shape).Idx → EReal) (b : Fin 4) (s : Fin 4096) (h : Fin 1024) :
    ffn A0 A1 A2 A3 A4 (ix3 b s h) = ffnWhole A0 A1 A2 A3 A4 b s h := rfl

end Cert.Ffn

end
-- ==== Proof.LibSliceLoad.lean ====
import Idealize.ShloMosaic.Lib.Pipeline.Value
import Idealize.ShloMosaic.Lib.ValueIdx

/-!
# Where a band of rows, or of columns, of a matrix sits in it

The unit-stride rectangle at offsets `(o, 0)` of sizes `(m, n1)` is rows `o … o + m - 1` of an `n0 × n1` matrix: its
position `(k, j)` is the matrix's position `(o + k, j)`. At offsets `(0, o)` of sizes `(n0, m)` it is columns
`o … o + m - 1`: its position `(p, k)` is the matrix's position `(p, o + k)`. A load through the rectangle reads the
matrix at these positions. The row or column of the matrix is passed as an index `r` with the equation `r = o + k`
on values, so that a caller may name it as it likes.
-/

noncomputable section

namespace Idealize.ShloMosaic.Rect

open Idealize.ShloMosaic.ValueIdx

/-- Rows `o …` of a matrix: position `(k, j)` of the band is position `(r, j)` of the matrix, `r = o + k`. -/
theorem idx_rowBand {n0 n1 m : Nat} (o : Nat)
    (inb : ∀ a, (![o, 0] : Fin 2 → Nat) a + (![m, n1] : Fin 2 → Nat) a ≤ (⟨2, ![n0, n1]⟩ : Shape).size a)
    (k : Fin m) (j : Fin n1) (r : Fin n0) (hr : r.val = o + k.val) :
    (Rect.unit (s := ⟨2, ![n0, n1]⟩) ![o, 0] ![m, n1] inb).toLoadRect.idx (ix2 k j) = ix2 r j := by
  funext a
  apply Fin.ext
  match a with
  | ⟨0, _⟩ => show o + 1 * k.val = r.val; omega
  | ⟨1, _⟩ => show 0 + 1 * j.val = j.val; omega

/-- Columns `o …` of a matrix: position `(p, k)` of the band is position `(p, r)` of the matrix, `r = o + k`. -/
theorem idx_colBand {n0 n1 m : Nat} (o : Nat)
    (inb : ∀ a, (![0, o] : Fin 2 → Nat) a + (![n0, m] : Fin 2 → Nat) a ≤ (⟨2, ![n0, n1]⟩ : Shape).size a)
    (p : Fin n0) (k : Fin m) (r : Fin n1) (hr : r.val = o + k.val) :
    (Rect.unit (s := ⟨2, ![n0, n1]⟩) ![0, o] ![n0, m] inb).toLoadRect.idx (ix2 p k) = ix2 p r := by
  funext a
  apply Fin.ext
  match a with
  | ⟨0, _⟩ => show 0 + 1 * p.val = p.val; omega
  | ⟨1, _⟩ => show o + 1 * k.val = r.val; omega

end Idealize.ShloMosaic.Rect

end
-- ==== Proof.BodyIdeal.lean ====
import proofs.«142552_j70214125355099_2_alg».proof.Proof.Body
import proofs.«142552_j70214125355099_2_alg».proof.Proof.Spec
import proofs.«142552_j70214125355099_2_alg».proof.Proof.LibSliceLoad
import Idealize.ShloMosaic.PureOps.Ideal.Laws
import Idealize.ShloMosaic.Lib.ValueIdx
import Idealize.ShloMosaic.Lib.ValueLayout

/-!
# The output block over the extended reals, entry by entry

At the ideal instance the body's two matrix products are plain sums over the contracted axis, the changes of float
format are the identity, and the rectifier is `max · 0`. Entry `(p, h)` of the block a grid point leaves is then
the chunked form of the feed-forward row (`Cert.Ffn.rowChunked`) for row `p` of the input block, the weights and
biases read straight off the whole matrices: band `q`'s rows of the first weight matrix, entries of the first bias
and columns of the second weight matrix are those of hidden units `1024 q + k`.
-/

set_option maxRecDepth 16384

noncomputable section

open Idealize.ShloMosaic Idealize.ShloMosaic.TcCoe Idealize.SL.Sem
open Idealize.ShloMosaic.Pipeline (Dat)

namespace Cert.KernelIdeal.BodyIdeal

open Cert.KernelIdeal Cert.KernelIdeal.Gen Cert.KernelIdeal.Body Idealize.ShloMosaic.ValueIdx Cert.Ffn

local notation "DD" => dot_S512x1024_S1024x1024_S512x1024_1_1_0_0_n_n

/-- The body's matrix product contracts the SECOND axis of both operands (the weights are stored out × in): into a
    zero accumulator, entry `(p, h)` is `∑ k, A (p, k) · B (h, k)`. -/
theorem matmul_rows_apply {φ₁ φ₂ : FTy} (A : FVec Ideal S512x1024 φ₁) (B : FVec Ideal S1024x1024 φ₂) (p : Fin 512) (h : Fin 1024) :
    matmul (F := Ideal) dot_S512x1024_S1024x1024_S512x1024_1_1_0_0_n_n none A B (constant (F := Ideal) S512x1024 .f32 0x00000000#32) (ix2 p h)
      = ∑ k : Fin 1024, A (ix2 p k) * B (ix2 h k) := by
  simp only [matmul]
  rw [Ideal.matmul_constant_zero_apply, ← Equiv.sum_comp (contrEquiv1 dot_S512x1024_S1024x1024_S512x1024_1_1_0_0_n_n 1024 rfl rfl).symm]
  refine Finset.sum_congr rfl fun k _ => ?_
  have hk := contrEquiv1_symm_val dot_S512x1024_S1024x1024_S512x1024_1_1_0_0_n_n 1024 rfl rfl k
  have el : dot_S512x1024_S1024x1024_S512x1024_1_1_0_0_n_n.lhsIdx (ix2 p h) ((contrEquiv1 dot_S512x1024_S1024x1024_S512x1024_1_1_0_0_n_n 1024 rfl rfl).symm k) = ix2 p k := funext fun a => Fin.ext (by
    match a with
    | ⟨0, _⟩ =>
      show (dot_S512x1024_S1024x1024_S512x1024_1_1_0_0_n_n.lhsIdx (ix2 p h) _ 0).val = p.val
      unfold DotDims.lhsIdx
      rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
      rfl
    | ⟨1, _⟩ => exact (dot_S512x1024_S1024x1024_S512x1024_1_1_0_0_n_n.lhsIdx_val_of_single rfl (ix2 p h) _).trans hk)
  have er : dot_S512x1024_S1024x1024_S512x1024_1_1_0_0_n_n.rhsIdx (ix2 p h) ((contrEquiv1 dot_S512x1024_S1024x1024_S512x1024_1_1_0_0_n_n 1024 rfl rfl).symm k) = ix2 h k := funext fun a => Fin.ext (by
    match a with
    | ⟨0, _⟩ =>
      show (dot_S512x1024_S1024x1024_S512x1024_1_1_0_0_n_n.rhsIdx (ix2 p h) _ 0).val = h.val
      unfold DotDims.rhsIdx
      rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
      rfl
    | ⟨1, _⟩ => exact (dot_S512x1024_S1024x1024_S512x1024_1_1_0_0_n_n.rhsIdx_val_of_single rfl (ix2 p h) _).trans hk)
  rw [el, er]

/-- The zero scalar the body broadcasts is the zero word. -/
theorem scalar_zero : Scalar.ofBits (F := Ideal) .f32 0x00000000#32 = zeroW := rfl

/-- Band 0 of the first weight matrix (out × in): its row `k` is the row of hidden unit `0 + k`. -/
theorem w1_band0 (inb) (k j : Fin 1024) :
    (Rect.unit (s := S4096x1024) ![0, 0] ![1024, 1024] inb).toLoadRect.idx (ix2 k j) = ix2 (unitAt 0 k) j :=
  Rect.idx_rowBand 0 inb k j (unitAt 0 k) (by rw [unitAt_val]; rfl)
/-- Band 0 of the first bias row: its entry `k` is the bias of hidden unit `0 + k`. -/
theorem b1_band0 (inb) (u : Fin 1) (k : Fin 1024) :
    (Rect.unit (s := S1x4096) ![0, 0] ![1, 1024] inb).toLoadRect.idx (ix2 u k) = ix2 u (unitAt 0 k) :=
  Rect.idx_colBand 0 inb u k (unitAt 0 k) (by rw [unitAt_val]; rfl)
/-- Band 0 of the second weight matrix (out × in): its column `k` is the column of hidden unit `0 + k`. -/
theorem w2_band0 (inb) (h k : Fin 1024) :
    (Rect.unit (s := S1024x4096) ![0, 0] ![1024, 1024] inb).toLoadRect.idx (ix2 h k) = ix2 h (unitAt 0 k) :=
  Rect.idx_colBand 0 inb h k (unitAt 0 k) (by rw [unitAt_val]; rfl)

/-- Band 1 of the first weight matrix (out × in): its row `k` is the row of hidden unit `1024 + k`. -/
theorem w1_band1 (inb) (k j : Fin 1024) :
    (Rect.unit (s := S4096x1024) ![1024, 0] ![1024, 1024] inb).toLoadRect.idx (ix2 k j) = ix2 (unitAt 1 k) j :=
  Rect.idx_rowBand 1024 inb k j (unitAt 1 k) (by rw [unitAt_val]; rfl)
/-- Band 1 of the first bias row: its entry `k` is the bias of hidden unit `1024 + k`. -/
theorem b1_band1 (inb) (u : Fin 1) (k : Fin 1024) :
    (Rect.unit (s := S1x4096) ![0, 1024] ![1, 1024] inb).toLoadRect.idx (ix2 u k) = ix2 u (unitAt 1 k) :=
  Rect.idx_colBand 1024 inb u k (unitAt 1 k) (by rw [unitAt_val]; rfl)
/-- Band 1 of the second weight matrix (out × in): its column `k` is the column of hidden unit `1024 + k`. -/
theorem w2_band1 (inb) (h k : Fin 1024) :
    (Rect.unit (s := S1024x4096) ![0, 1024] ![1024, 1024] inb).toLoadRect.idx (ix2 h k) = ix2 h (unitAt 1 k) :=
  Rect.idx_colBand 1024 inb h k (unitAt 1 k) (by rw [unitAt_val]; rfl)

/-- Band 2 of the first weight matrix (out × in): its row `k` is the row of hidden unit `2048 + k`. -/
theorem w1_band2 (inb) (k j : Fin 1024) :
    (Rect.unit (s := S4096x1024) ![2048, 0] ![1024, 1024] inb).toLoadRect.idx (ix2 k j) = ix2 (unitAt 2 k) j :=
  Rect.idx_rowBand 2048 inb k j (unitAt 2 k) (by rw [unitAt_val]; rfl)
/-- Band 2 of the first bias row: its entry `k` is the bias of hidden unit `2048 + k`. -/
theorem b1_band2 (inb) (u : Fin 1) (k : Fin 1024) :
    (Rect.unit (s := S1x4096) ![0, 2048] ![1, 1024] inb).toLoadRect.idx (ix2 u k) = ix2 u (unitAt 2 k) :=
  Rect.idx_colBand 2048 inb u k (unitAt 2 k) (by rw [unitAt_val]; rfl)
/-- Band 2 of the second weight matrix (out × in): its column `k` is the column of hidden unit `2048 + k`. -/
theorem w2_band2 (inb) (h k : Fin 1024) :
    (Rect.unit (s := S1024x4096) ![0, 2048] ![1024, 1024] inb).toLoadRect.idx (ix2 h k) = ix2 h (unitAt 2 k) :=
  Rect.idx_colBand 2048 inb h k (unitAt 2 k) (by rw [unitAt_val]; rfl)

/-- Band 3 of the first weight matrix (out × in): its row `k` is the row of hidden unit `3072 + k`. -/
theorem w1_band3 (inb) (k j : Fin 1024) :
    (Rect.unit (s := S4096x1024) ![3072, 0] ![1024, 1024] inb).toLoadRect.idx (ix2 k j) = ix2 (unitAt 3 k) j :=
  Rect.idx_rowBand 3072 inb k j (unitAt 3 k) (by rw [unitAt_val]; rfl)
/-- Band 3 of the first bias row: its entry `k` is the bias of hidden unit `3072 + k`. -/
theorem b1_band3 (inb) (u : Fin 1) (k : Fin 1024) :
    (Rect.unit (s := S1x4096) ![0, 3072] ![1, 1024] inb).toLoadRect.idx (ix2 u k) = ix2 u (unitAt 3 k) :=
  Rect.idx_colBand 3072 inb u k (unitAt 3 k) (by rw [unitAt_val]; rfl)
/-- Band 3 of the second weight matrix (out × in): its column `k` is the column of hidden unit `3072 + k`. -/
theorem w2_band3 (inb) (h k : Fin 1024) :
    (Rect.unit (s := S1024x4096) ![0, 3072] ![1024, 1024] inb).toLoadRect.idx (ix2 h k) = ix2 h (unitAt 3 k) :=
  Rect.idx_colBand 3072 inb h k (unitAt 3 k) (by rw [unitAt_val]; rfl)

/-- Entry `(p, h)` of the block a grid point leaves: the chunked feed-forward row of the input block's row `p`,
    at output `h`, over the whole weight matrices and bias rows. -/
theorem blockOut_apply (x0 : Vec Ideal S512x1024 .f32) (x1 : Vec Ideal S4096x1024 .bf16) (x2 : Vec Ideal S1x4096 .f32)
    (x3 : Vec Ideal S1024x4096 .bf16) (x4 : Vec Ideal S1x1024 .f32) (p : Fin 512) (h : Fin 1024) :
    blockOut (F := Ideal) x0 x1 x2 x3 x4 (ix2 p h)
      = rowChunked (fun j => x0 (ix2 p j)) (fun f j => x1 (ix2 f j)) (fun f => x2 (ix2 (0 : Fin 1) f))
          (fun h' f => x3 (ix2 h' f)) (fun h' => x4 (ix2 (0 : Fin 1) h')) h := by
  unfold blockOut k0_pay1 k0_pay2 k0_pay4 k0_pay5 k0_pay6 k0_pay7 k0_pay8 k0_pay9 k0_pay10 k0_pay11
  simp only [k0_pay3, addf_apply, maximumf_apply, truncf_apply, broadcast_apply, shapeCast_self, broadcastTo_1b_ab_apply,
    matmul_rows_apply, scalar_zero, View.ld,
    w1_band0, w1_band1, w1_band2, w1_band3, b1_band0, b1_band1, b1_band2, b1_band3, w2_band0, w2_band1, w2_band2, w2_band3]
  rfl

end Cert.KernelIdeal.BodyIdeal

end
-- ==== Proof.KernelArray.lean ====
import proofs.«142552_j70214125355099_2_alg».proof.Proof.BodyIdeal
import Idealize.ShloMosaic.Lib.Pipeline.Value

/-!
# The region's result array, from its blocks

The grid has 32 points. Point `t` reads rows `512 t … 512 t + 511` of the 16384 × 1024 input, the whole weight
matrices and bias rows (their one block, whatever the point), and writes rows `512 t …` of the 16384 × 1024 result.
The body's block is a row-wise function of its inputs, so every block is the restriction of ONE function of the
arrays the region finds: row `r`, output `h` of the result is the chunked feed-forward row of row `r` of the input.
The 32 blocks tile the result array (row `r` is in the block of point `r / 512`), so after the run the array is
that function everywhere.
-/

set_option maxRecDepth 16384

noncomputable section

open Idealize.ShloMosaic Idealize.ShloMosaic.TcCoe Idealize.SL.Sem
open Idealize.ShloMosaic.Pipeline (Dat)

namespace Cert.KernelIdeal.FfnArray

open Cert.KernelIdeal Cert.KernelIdeal.Gen Cert.KernelIdeal.Body Cert.KernelIdeal.BodyIdeal
open Idealize.ShloMosaic.ValueIdx Cert.Ffn

/-- Row `r`, output `h` of the result: the chunked feed-forward row of the input's row `r`. -/
def rowOut (X0 : S16384x1024.Idx → EReal) (X1 : S4096x1024.Idx → EReal) (X2 : S1x4096.Idx → EReal)
    (X3 : S1024x4096.Idx → EReal) (X4 : S1x1024.Idx → EReal) (r : Fin 16384) (h : Fin 1024) : EReal :=
  rowChunked (fun j => X0 (ix2 r j)) (fun f j => X1 (ix2 f j)) (fun f => X2 (ix2 (0 : Fin 1) f))
    (fun h' f => X3 (ix2 h' f)) (fun h' => X4 (ix2 (0 : Fin 1) h')) h

/-- The 16384 × 1024 result array as one function of the five arrays the region reads. -/
def arrOut (X0 : S16384x1024.Idx → EReal) (X1 : S4096x1024.Idx → EReal) (X2 : S1x4096.Idx → EReal)
    (X3 : S1024x4096.Idx → EReal) (X4 : S1x1024.Idx → EReal) : S16384x1024.Idx → EReal :=
  fun i => rowOut X0 X1 X2 X3 X4 (i 0) (i 1)

/-- A block's entry is the array's entry, once row `y 0` of the input block is row `i 0` of the input array and the
    output positions agree: the weights and biases are read whole by every block. -/
theorem block_entry (X0 : S16384x1024.Idx → EReal) (x0 : Vec Ideal S512x1024 .f32) (x1 : Vec Ideal S4096x1024 .bf16)
    (x2 : Vec Ideal S1x4096 .f32) (x3 : Vec Ideal S1024x4096 .bf16) (x4 : Vec Ideal S1x1024 .f32)
    (y : S512x1024.Idx) (i : S16384x1024.Idx)
    (hrow : ∀ j : Fin 1024, x0 (ix2 (y 0) j) = X0 (ix2 (i 0) j)) (hcol : (i 1).val = (y 1).val) :
    blockOut (F := Ideal) x0 x1 x2 x3 x4 y = arrOut X0 x1 x2 x3 x4 i := by
  obtain ⟨p, h, rfl⟩ : ∃ (p : Fin 512) (h : Fin 1024), y = ix2 p h := ⟨y 0, y 1, eq_ix2 y⟩
  obtain ⟨r, h', rfl⟩ : ∃ (r : Fin 16384) (h' : Fin 1024), i = ix2 r h' := ⟨i 0, i 1, eq_ix2 i⟩
  obtain rfl : h = h' := Fin.ext hcol.symm
  rw [blockOut_apply]
  unfold arrOut rowOut
  exact congrArg (fun g => rowChunked g (fun f j => x1 (ix2 f j)) (fun f => x2 (ix2 (0 : Fin 1) f))
    (fun h' f => x3 (ix2 h' f)) (fun h' => x4 (ix2 (0 : Fin 1) h')) h) (funext hrow)

variable (m : (ℓ : Loc nD τ sig) → Buf (Elt Ideal) ℓ) (ρ : Dev nD → PrngReg)

/-- The printed index maps, decided once over the 32 points: the input's and the result's blocks are both block
    row `t`, column 0; the weight and bias windows stay at block (0, 0). -/
theorem idx_facts : ∀ t : Fin cfg0.N,
    win0_0.index t (0 : Fin 2) = t.val ∧ win0_0.index t (1 : Fin 2) = 0
    ∧ win0_5.index t (0 : Fin 2) = t.val ∧ win0_5.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The first weight matrix's one block is the whole array, at every point. -/
theorem iblk1_eq (c : Dev nD) (t : Fin cfg0.N) : (iblk m c 1 t : S4096x1024.Idx → EReal) = V m c main_v1 := by
  obtain ⟨-, -, -, -, e0, e1, -⟩ := idx_facts t
  funext z
  show V m c main_v1 (((cfg0.win 1).blk t).view.emb z) = V m c main_v1 z
  refine congrArg (V m c main_v1) (funext fun a => Fin.ext ?_)
  match a with
  | ⟨0, _⟩ => show win0_1.index t (0 : Fin 2) * 4096 + 1 * (z 0).val = (z 0).val; rw [e0]; omega
  | ⟨1, _⟩ => show win0_1.index t (1 : Fin 2) * 1024 + 1 * (z 1).val = (z 1).val; rw [e1]; omega

/-- The first bias row's one block is the whole array. -/
theorem iblk2_eq (c : Dev nD) (t : Fin cfg0.N) : (iblk m c 2 t : S1x4096.Idx → EReal) = V m c main_v3 := by
  obtain ⟨-, -, -, -, -, -, e0, e1, -⟩ := idx_facts t
  funext z
  show V m c main_v3 (((cfg0.win 2).blk t).view.emb z) = V m c main_v3 z
  refine congrArg (V m c main_v3) (funext fun a => Fin.ext ?_)
  match a with
  | ⟨0, _⟩ => show win0_2.index t (0 : Fin 2) * 1 + 1 * (z 0).val = (z 0).val; rw [e0]; omega
  | ⟨1, _⟩ => show win0_2.index t (1 : Fin 2) * 4096 + 1 * (z 1).val = (z 1).val; rw [e1]; omega

/-- The second weight matrix's one block is the whole array. -/
theorem iblk3_eq (c : Dev nD) (t : Fin cfg0.N) : (iblk m c 3 t : S1024x4096.Idx → EReal) = V m c main_v2 := by
  obtain ⟨-, -, -, -, -, -, -, -, e0, e1, -⟩ := idx_facts t
  funext z
  show V m c main_v2 (((cfg0.win 3).blk t).view.emb z) = V m c main_v2 z
  refine congrArg (V m c main_v2) (funext fun a => Fin.ext ?_)
  match a with
  | ⟨0, _⟩ => show win0_3.index t (0 : Fin 2) * 1024 + 1 * (z 0).val = (z 0).val; rw [e0]; omega
  | ⟨1, _⟩ => show win0_3.index t (1 : Fin 2) * 4096 + 1 * (z 1).val = (z 1).val; rw [e1]; omega

/-- The second bias row's one block is the whole array. -/
theorem iblk4_eq (c : Dev nD) (t : Fin cfg0.N) : (iblk m c 4 t : S1x1024.Idx → EReal) = V m c main_v4 := by
  obtain ⟨-, -, -, -, -, -, -, -, -, -, e0, e1⟩ := idx_facts t
  funext z
  show V m c main_v4 (((cfg0.win 4).blk t).view.emb z) = V m c main_v4 z
  refine congrArg (V m c main_v4) (funext fun a => Fin.ext ?_)
  match a with
  | ⟨0, _⟩ => show win0_4.index t (0 : Fin 2) * 1 + 1 * (z 0).val = (z 0).val; rw [e0]; omega
  | ⟨1, _⟩ => show win0_4.index t (1 : Fin 2) * 1024 + 1 * (z 1).val = (z 1).val; rw [e1]; omega

/-- The result array as a function of the arrays the region finds (the order of the region's operands: input, first
    weights, first bias, second weights, second bias). -/
abbrev result (c : Dev nD) : S16384x1024.Idx → EReal :=
  arrOut (V m c main_v0) (V m c main_v1) (V m c main_v3) (V m c main_v2) (V m c main_v4)

/-- What point `t` writes back is block `t` of `result`. -/
theorem flushed_eq (c : Dev nD) (t : Fin cfg0.N) :
    (dats m 0 c).flushed 5 t = ((cfg0.win 5).blk t).view.read (Elt Ideal) (result m c) := by
  show (cfg0.win 5).cut (grid0.coords t) ((dats m 0 c).after 5 t) = _
  rw [after0_5]
  unfold outsAt0
  rw [out_eq_blockOut, iblk1_eq, iblk2_eq, iblk3_eq, iblk4_eq]
  obtain ⟨e00, e01, e50, e51, -⟩ := idx_facts t
  funext y
  show blockOut (F := Ideal) (iblk m c 0 t) (V m c main_v1) (V m c main_v3) (V m c main_v2) (V m c main_v4) y
    = result m c (((cfg0.win 5).blk t).view.emb y)
  refine block_entry (V m c main_v0) _ _ _ _ _ y _ (fun j => ?_) ?_
  · show V m c main_v0 (((cfg0.win 0).blk t).view.emb (ix2 (y 0) j)) = V m c main_v0 (ix2 ((((cfg0.win 5).blk t).view.emb y) 0) j)
    refine congrArg (V m c main_v0) (funext fun a => Fin.ext ?_)
    match a with
    | ⟨0, _⟩ => show win0_0.index t (0 : Fin 2) * 512 + 1 * (y 0).val = win0_5.index t (0 : Fin 2) * 512 + 1 * (y 0).val; rw [e00, e50]
    | ⟨1, _⟩ => show win0_0.index t (1 : Fin 2) * 1024 + 1 * j.val = j.val; rw [e01]; omega
  · show win0_5.index t (1 : Fin 2) * 1024 + 1 * (y 1).val = (y 1).val
    rw [e51]; omega

/-- An index of the result array is in point `t`'s block iff each coordinate is in the block's range on its axis. -/
theorem mem_blk (t : Fin cfg0.N) (i : S16384x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v5).slice (win0_5.rect t)).set ↔ _
  rw [View.set_slice_whole, Rect.mem_set_unit]
  exact Iff.rfl

/-- Every index of the result array is in some point's block: row `r` in the block of point `r / 512`. -/
theorem cover (i : S16384x1024.Idx) :
    ∃ t : Fin cfg0.N, (cfg0.win 5).flush t = true ∧ i ∈ ((cfg0.win 5).blk t).view.set := by
  have hN : cfg0.N = 32 := N_0
  have hi0 : (i 0).val < 16384 := (i 0).isLt
  have hi1 : (i 1).val < 1024 := (i 1).isLt
  refine ⟨⟨(i 0).val / 512, by rw [hN]; omega⟩, flush0_5 _, ?_⟩
  rw [mem_blk]
  obtain ⟨-, -, e50, e51, -⟩ := idx_facts ⟨(i 0).val / 512, by rw [hN]; omega⟩
  intro a
  match a with
  | ⟨0, _⟩ =>
    show win0_5.index _ (0 : Fin 2) * 512 ≤ (i 0).val ∧ (i 0).val < win0_5.index _ (0 : Fin 2) * 512 + 512
    rw [e50]; show (i 0).val / 512 * 512 ≤ (i 0).val ∧ (i 0).val < (i 0).val / 512 * 512 + 512; omega
  | ⟨1, _⟩ =>
    show win0_5.index _ (1 : Fin 2) * 1024 ≤ (i 1).val ∧ (i 1).val < win0_5.index _ (1 : Fin 2) * 1024 + 1024
    rw [e51]; omega

/-- The result array after the run is `result`. -/
theorem final (c : Dev nD) : (dats m 0 c).arrAt 5 cfg0.N = result m c :=
  (dats m 0 c).arrAt_eq_of_cover 5 (result m c) (fun t _ => flushed_eq m c t) cover

end Cert.KernelIdeal.FfnArray

end
-- ==== Proof.LibMergeLead.lean ====
import Idealize.ShloMosaic.Lib.Pipeline.Value
import Idealize.ShloMosaic.Lib.ValueIdx

/-!
# Two leading axes merged into one, and split again, by a shape cast

An `[a, b, c]` array cast to `[n, c]` (with `n = a · b`: a batch of sequences flattened to rows) reads, at row `r`
and column `j`, the operand at `(i, s, j)` where `r = i · b + s`; the cast back from `[n, c]` to `[a, b, c]` reads
at `(i, s, j)` the operand at `(r, j)`. Both are the same row-major position. The merged row is passed as an
index `r` with the equation on values, so that a caller may name it as it likes.
-/

noncomputable section

namespace Idealize.ShloMosaic

open Idealize.ShloMosaic.ValueIdx

variable {α : Type}

/-- `[a, b, c] → [n, c]`: row `r = i · b + s`, column `j` reads `(i, s, j)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (s : Fin b) (j : Fin c) (r : Fin n)
    (hr : r.val = i.val * b + s.val) : shapeCast ⟨2, ![n, c]⟩ x h (ix2 r j) = x (ix3 i s j) :=
  shapeCast_apply x h _ _ (by
    rw [Shape.rowMajor_val_three, Shape.rowMajor_val_two]
    show (i.val * b + s.val) * c + j.val = r.val * c + j.val
    rw [hr])

/-- `[n, c] → [a, b, c]`: `(i, s, j)` reads row `r = i · b + s`, column `j`. -/
theorem shapeCast_nc_abc_apply {a b c n : ℕ} (x : (⟨2, ![n, c]⟩ : Shape).Idx → α)
    (h : (⟨2, ![n, c]⟩ : Shape).ShapeCasts ⟨3, ![a, b, c]⟩) (i : Fin a) (s : Fin b) (j : Fin c) (r : Fin n)
    (hr : r.val = i.val * b + s.val) : shapeCast ⟨3, ![a, b, c]⟩ x h (ix3 i s j) = x (ix2 r j) :=
  shapeCast_apply x h _ _ (by
    rw [Shape.rowMajor_val_three, Shape.rowMajor_val_two]
    show r.val * c + j.val = (i.val * b + s.val) * c + j.val
    rw [hr])

end Idealize.ShloMosaic

end
-- ==== Proof.KernelValue.lean ====
import proofs.«142552_j70214125355099_2_alg».proof.Proof.KernelArray
import proofs.«142552_j70214125355099_2_alg».proof.Proof.LibMergeLead
import Idealize.ShloMosaic.Lib.StableHlo.Run
import Idealize.ShloMosaic.Lib.ValueLayout
import Idealize.ShloMosaic.Lib.Tactic

/-!
# The kernel's result as a function of its arguments

Around the region the program only re-lays arrays: before it, the `4 × 4096 × 1024` input is flattened to
`16384 × 1024` rows (row `4096 b + s` is position `(b, s)`), the two bias vectors get a leading unit axis, and the two
weight matrices change float format (the identity on extended reals); after it, the `16384 × 1024` result is split
back to `4 × 4096 × 1024`. So entry `(b, s, h)` of the program's result is the chunked feed-forward row of the input's
row `(b, s)`, which is the layer's whole-sum form (`Cert.Ffn.ffnChunked_eq_ffnWhole`).
-/

set_option maxRecDepth 16384

noncomputable section

open Idealize.ShloMosaic Idealize.ShloMosaic.TcCoe Idealize.SL.Sem
open Idealize.ShloMosaic.Pipeline (Dat)

namespace Cert.KernelIdeal.FfnValue

open Cert.KernelIdeal Cert.KernelIdeal.Gen Cert.KernelIdeal.FfnArray Idealize.ShloMosaic.ValueIdx Cert.Ffn

/-- The region's result array over re-laid arguments, split back to `4 × 4096 × 1024`, is the layer's result array. -/
theorem split_arrOut (A0 : S4x4096x1024.Idx → EReal) (A1 : S4096x1024.Idx → EReal) (A2 : S4096.Idx → EReal)
    (A3 : S1024x4096.Idx → EReal) (A4 : S1024.Idx → EReal)
    (hc0 : S4x4096x1024.ShapeCasts S16384x1024) (hc2 : S4096.ShapeCasts S1x4096) (hc4 : S1024.ShapeCasts S1x1024)
    (hb : FTy.bf16.bits < FTy.f32.bits) (hc : S16384x1024.ShapeCasts S4x4096x1024) :
    shapeCast S4x4096x1024
        (arrOut (shapeCast S16384x1024 A0 hc0) (truncf (F := Ideal) .bf16 A1 hb) (shapeCast S1x4096 A2 hc2)
          (truncf (F := Ideal) .bf16 A3 hb) (shapeCast S1x1024 A4 hc4)) hc
      = ffn A0 A1 A2 A3 A4 := by
  funext i
  obtain ⟨b, s, h, rfl⟩ : ∃ (b : Fin 4) (s : Fin 4096) (h : Fin 1024), i = ix3 b s h := ⟨i 0, i 1, i 2, eq_ix3 i⟩
  have hr : b.val * 4096 + s.val < 16384 := by have := b.isLt; have := s.isLt; omega
  rw [shapeCast_nc_abc_apply _ hc b s h ⟨b.val * 4096 + s.val, hr⟩ rfl, ffn_apply, ← ffnChunked_eq_ffnWhole]
  have e0 : ∀ j : Fin 1024, shapeCast S16384x1024 A0 hc0 (ix2 (⟨b.val * 4096 + s.val, hr⟩ : Fin 16384) j) = A0 (ix3 b s j) :=
    fun j => shapeCast_abc_nc_apply A0 hc0 b s j ⟨b.val * 4096 + s.val, hr⟩ rfl
  show rowChunked (fun j => shapeCast S16384x1024 A0 hc0 (ix2 (⟨b.val * 4096 + s.val, hr⟩ : Fin 16384) j))
      (fun f j => truncf (F := Ideal) .bf16 A1 hb (ix2 f j)) (fun f => shapeCast S1x4096 A2 hc2 (ix2 (0 : Fin 1) f))
      (fun h' f => truncf (F := Ideal) .bf16 A3 hb (ix2 h' f)) (fun h' => shapeCast S1x1024 A4 hc4 (ix2 (0 : Fin 1) h')) h
    = rowChunked (fun j => A0 (ix3 b s j)) (fun f j => A1 (ix2 f j)) (fun f => A2 (ix1 f)) (fun h' f => A3 (ix2 h' f))
      (fun h' => A4 (ix1 h')) h
  simp only [e0, truncf_apply, shapeCast_a_1a_apply]

variable (m : (ℓ : Loc nD τ sig) → Buf (Elt Ideal) ℓ) (ρ : Dev nD → PrngReg)

/-- What the region finds in its input array: the program's first argument flattened to rows. -/
theorem V_v0 (c : Dev nD) : (V m c main_v0 : S16384x1024.Idx → EReal)
    = shapeCast S16384x1024 (m ((c.tc : Thread nD τ).loc main_arg0)) shapeCasts_S4x4096x1024_S16384x1024 := by
  show StableHlo.after hostOps0 (fun b => m (c, b)) (Proc.devRef .tc main_v0) = _
  after_results
  rfl

/-- The first weight matrix as the region finds it: the second argument in another float format. -/
theorem V_v1 (c : Dev nD) : (V m c main_v1 : S4096x1024.Idx → EReal)
    = truncf (F := Ideal) .bf16 (m ((c.tc : Thread nD τ).loc main_arg1) : FVec Ideal S4096x1024 .f32) bitsLt_bf16_f32 := by
  show StableHlo.after hostOps0 (fun b => m (c, b)) (Proc.devRef .tc main_v1) = _
  after_results

/-- The second weight matrix as the region finds it: the fourth argument in another float format. -/
theorem V_v2 (c : Dev nD) : (V m c main_v2 : S1024x4096.Idx → EReal)
    = truncf (F := Ideal) .bf16 (m ((c.tc : Thread nD τ).loc main_arg3) : FVec Ideal S1024x4096 .f32) bitsLt_bf16_f32 := by
  show StableHlo.after hostOps0 (fun b => m (c, b)) (Proc.devRef .tc main_v2) = _
  after_results

/-- The first bias as the region finds it: the third argument as one row. -/
theorem V_v3 (c : Dev nD) : (V m c main_v3 : S1x4096.Idx → EReal)
    = shapeCast S1x4096 (m ((c.tc : Thread nD τ).loc main_arg2)) shapeCasts_S4096_S1x4096 := by
  show StableHlo.after hostOps0 (fun b => m (c, b)) (Proc.devRef .tc main_v3) = _
  after_results
  rfl

/-- The second bias as the region finds it: the fifth argument as one row. -/
theorem V_v4 (c : Dev nD) : (V m c main_v4 : S1x1024.Idx → EReal)
    = shapeCast S1x1024 (m ((c.tc : Thread nD τ).loc main_arg4)) shapeCasts_S1024_S1x1024 := by
  show StableHlo.after hostOps0 (fun b => m (c, b)) (Proc.devRef .tc main_v4) = _
  after_results
  rfl

/-- The program's result: the one operation after the region splits the region's result array back. -/
theorem tail_eq (c : Dev nD) :
    Pipeline.afterTail₀ cfgs (dats m) 0 (V0 m) [hostOps1] c main_v6
      = shapeCast S4x4096x1024 (result m c) shapeCasts_S16384x1024_S4x4096x1024 := by
  have e : Pipeline.withArrays spec0 c (V0 m c) (fun w => (dats m 0 c).arrAt w cfg0.N) (Proc.devRef .tc (Pipeline.arrRef spec0 5))
      = result m c :=
    (Pipeline.withArrays_arr spec0 launch0.win.arr_inj c (V0 m c) (fun w => (dats m 0 c).arrAt w cfg0.N) 5).trans (final m c)
  unfold Pipeline.afterTail₀
  show StableHlo.after hostOps1 _ (Proc.devRef .tc main_v6) = _
  after_results
  exact congrArg (fun X : S16384x1024.Idx → EReal => shapeCast S4x4096x1024 X shapeCasts_S16384x1024_S4x4096x1024) e

/-- The program's result is the layer's result array of its arguments. -/
theorem result_eq_ffn (c : Dev nD) :
    Pipeline.afterTail₀ cfgs (dats m) 0 (V0 m) [hostOps1] c main_v6
      = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [tail_eq]
  unfold result
  rw [V_v0, V_v1, V_v2, V_v3, V_v4]
  exact split_arrOut _ _ _ _ _ _ _ _ _ _

/-- The run, read: the program's result at the layer's result array of the arguments, the arguments unchanged. -/
theorem run : θ_run defs (onTc (τ := τ) (main (F := Ideal))) ⟨m, fun _ => 0, ρ⟩ (fun r => ∀ c : Dev nD,
      r.2.mem ((c.tc : Thread nD τ).loc main_v6)
        = ffn (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v6 (Pipeline.mem_restRefs_of main_v6 (by decide) (by decide))).trans (result_eq_ffn m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.FfnValue

end
-- ==== Proof.RefValue.lean ====
import proofs.«142552_j70214125355099_2_alg».proof.Proof.Gen.ReferenceIdeal.Read
import proofs.«142552_j70214125355099_2_alg».proof.Proof.Spec

/-!
# The reference computes the layer

The reference is two `dot_general`s (each contracting its left operand's last axis with the second axis of a weight
matrix stored out × in), two bias broadcasts, and a rectifier `max · 0` between them. Read at an index `(b, s, h)`,
operation by operation, its result is `(∑ f, max (∑ j, x (b, s, j) · W₁ (f, j) + b₁ f) 0 · W₂ (h, f)) + b₂ h`: the
layer's whole-sum form `Cert.Ffn.ffn`.
-/

set_option maxRecDepth 16384

noncomputable section

open Idealize.ShloMosaic Idealize.ShloMosaic.TcCoe Idealize.SL.Sem
open Idealize.ShloMosaic.Pipeline (Dat)

namespace Cert.ReferenceIdeal.RefValue

open Cert.ReferenceIdeal Cert.ReferenceIdeal.Read Idealize.ShloMosaic.ValueIdx Cert.Ffn

/-- The reference's result term is the layer's result array. -/
theorem ref_eq_ffn (x0 : S4x4096x1024.Idx → EReal) (x1 : S4096x1024.Idx → EReal) (x2 : S4096.Idx → EReal)
    (x3 : S1024x4096.Idx → EReal) (x4 : S1024.Idx → EReal) :
    val_main_v8 (F := Ideal) x0 x1 x2 x3 x4 = ffn x0 x1 x2 x3 x4 := by
  funext i
  obtain ⟨b, s, h, rfl⟩ : ∃ (b : Fin 4) (s : Fin 4096) (h : Fin 1024), i = ix3 b s h := ⟨i 0, i 1, i 2, eq_ix3 i⟩
  -- the operand indices the stages compose, as coordinates
  have e0 : ∀ (k : Fin 4096) (j : Fin 1024), lidx_main_v0 (lidx_main_v5 (ix3 b s h) k) j = ix3 b s j := fun k j =>
    funext fun a => by match a with | ⟨0, _⟩ => rfl | ⟨1, _⟩ => rfl | ⟨2, _⟩ => rfl
  have e1 : ∀ (k : Fin 4096) (j : Fin 1024), ridx_main_v0 (lidx_main_v5 (ix3 b s h) k) j = ix2 k j := fun k j =>
    funext fun a => by match a with | ⟨0, _⟩ => rfl | ⟨1, _⟩ => rfl
  have e2 : ∀ k : Fin 4096, idx_main_v1 (idx_main_v2 (lidx_main_v5 (ix3 b s h) k)) = ix1 k := fun k =>
    funext fun a => by match a with | ⟨0, _⟩ => rfl
  have e3 : ∀ k : Fin 4096, ridx_main_v5 (ix3 b s h) k = ix2 h k := fun k =>
    funext fun a => by match a with | ⟨0, _⟩ => rfl | ⟨1, _⟩ => rfl
  have e4 : idx_main_v6 (idx_main_v7 (ix3 b s h)) = ix1 h :=
    funext fun a => by match a with | ⟨0, _⟩ => rfl
  rw [val_main_v8_apply, val_main_v5_apply, val_main_v7_apply, val_main_v6_apply, e4, ffn_apply]
  simp only [val_main_v4_apply, val_main_v3_apply, val_main_v0_apply, val_main_v2_apply, val_main_v1_apply,
    val_main_call0_v0_apply, val_main_call0_cst_apply, e0, e1, e2, e3, Ideal.addf_def, Ideal.maximumf_def,
    Ideal.ofBits_def]
  rfl

end Cert.ReferenceIdeal.RefValue

end
-- ==== Proof.lean ====
/-
  A two-layer feed-forward block with a rectifier, `relu (x · W₁ᵀ + b₁) · W₂ᵀ + b₂` over a `4 × 4096 × 1024` input with
  4096 hidden units, as a kernel against its plain reference, over the extended reals.

  The kernel flattens the input to 16384 rows and works on 512 rows per grid point; inside a point it takes the hidden
  units in four bands of 1024 and adds each band's contribution `relu (x · W₁[band]ᵀ + b₁[band]) · W₂[:, band]ᵀ` to a
  running block that starts at zero, then adds `b₂`. The reference contracts over all 4096 hidden units at once. The
  changes of float format in the kernel are the identity on extended reals, both matrix products are plain sums, and a
  sum over the 4096 hidden units is the sum of the four bands' sums (addition of extended reals is commutative and
  associative; the zero the running block starts from is the additive zero). So both programs compute, at `(b, s, h)`,
  `(∑ f, max (∑ j, x (b, s, j) · W₁ (f, j) + b₁ f) 0 · W₂ (h, f)) + b₂ h` (`Cert.Ffn.ffn`): no finiteness of the inputs is
  used.

  Modules: Spec (the row's two forms and their equality), Body (what a grid point leaves, any float instance),
  BodyIdeal (that block entry by entry over the extended reals), KernelArray (the region's result array from its
  blocks), KernelValue (the program's result through the re-layings around the region), RefValue (the reference's
  result read operation by operation). The frames are the generated ones; the reference's is its generated run.
-/
import proofs.«142552_j70214125355099_2_alg».proof.Defs
import proofs.«142552_j70214125355099_2_alg».proof.Proof.Gen.Kernel
import proofs.«142552_j70214125355099_2_alg».proof.Proof.Gen.Kernel.Skeleton
import proofs.«142552_j70214125355099_2_alg».proof.Proof.Gen.Kernel.Launch
import proofs.«142552_j70214125355099_2_alg».proof.Proof.Gen.Kernel.Points
import proofs.«142552_j70214125355099_2_alg».proof.Proof.Gen.Kernel.Frame
import proofs.«142552_j70214125355099_2_alg».proof.Proof.Gen.KernelIdeal
import proofs.«142552_j70214125355099_2_alg».proof.Proof.Gen.KernelIdeal.Skeleton
import proofs.«142552_j70214125355099_2_alg».proof.Proof.Gen.KernelIdeal.Launch
import proofs.«142552_j70214125355099_2_alg».proof.Proof.Gen.KernelIdeal.Points
import proofs.«142552_j70214125355099_2_alg».proof.Proof.Gen.KernelIdeal.Frame
import proofs.«142552_j70214125355099_2_alg».proof.Proof.Gen.ReferenceIdeal
import proofs.«142552_j70214125355099_2_alg».proof.Proof.Gen.Pre_finite_inputs
import proofs.«142552_j70214125355099_2_alg».proof.Proof.Gen.ReferenceIdeal.Run
import proofs.«142552_j70214125355099_2_alg».proof.Proof.Gen.ReferenceIdeal.Read
import proofs.«142552_j70214125355099_2_alg».proof.Proof.KernelValue
import proofs.«142552_j70214125355099_2_alg».proof.Proof.RefValue
import Idealize.ShloMosaic.Adequacy
import Idealize.ShloMosaic.Init

noncomputable section

namespace Cert.Proof

open Idealize.ShloMosaic Idealize.SL.Sem

/-- The kernel as printed runs and leaves its arguments as they were. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments as they were: its run, the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's result array of arguments that agree. -/
theorem algebraic : Cert.algebraic_KernelIdeal_ReferenceIdeal := by
  intro m ρ m' ρ' _ hagree
  refine ⟨fun c => Cert.Ffn.ffn (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)),
    Cert.KernelIdeal.FfnValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.ReferenceIdeal.RefValue.ref_eq_ffn,
    (hagree c).1, (hagree c).2.1, (hagree c).2.2.1, (hagree c).2.2.2.1, (hagree c).2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
